-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1769472 : Shape := ⟨1, ![1769472]⟩
abbrev S4x196608x32 : Shape := ⟨3, ![4, 196608, 32]⟩
abbrev S5x32x64 : Shape := ⟨3, ![5, 32, 64]⟩
abbrev S64 : Shape := ⟨1, ![64]⟩
abbrev S_ : Shape := ⟨0, ![]⟩

class Facts : Prop where
  bcast_S_S1769472 : S_.BroadcastsInDim S1769472 (![] : Fin 0 → Fin S1769472.rank)
  reducesTo_S1769472_S_d0 : S1769472.ReducesTo [0] S_
  h_S_ : 0 < S_.numel
  bcast_S_S4x196608x32 : S_.BroadcastsInDim S4x196608x32 (![] : Fin 0 → Fin S4x196608x32.rank)
  reducesTo_S4x196608x32_S_d0_1_2 : S4x196608x32.ReducesTo [0, 1, 2] S_
  bcast_S_S5x32x64 : S_.BroadcastsInDim S5x32x64 (![] : Fin 0 → Fin S5x32x64.rank)
  reducesTo_S5x32x64_S_d0_1_2 : S5x32x64.ReducesTo [0, 1, 2] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : IVec S1769472 32) (main_arg1 : IVec S1769472 32) (main_arg2 : FVec F S1769472 .f32) (main_arg3 : FVec F S4x196608x32 .f32) (main_arg4 : FVec F S5x32x64 .f32) (main_arg5 : FVec F S64 .f32) : IVec S_ 1 :=
  let main_v0 : FVec F S1769472 .f32 := Host.absf main_arg2
  let main_cst : FVec F S_ .f32 := constant S_ .f32 0x7F800000#32
  let main_v1 : FVec F S1769472 .f32 := broadcastInDim S1769472 ![] bcast_S_S1769472 main_cst
  let main_v2 : IVec S1769472 1 := cmpf .olt main_v0 main_v1
  let main_c : IVec S_ 1 := constantI S_ 1 1#1
  let main_v3 : IVec S_ 1 := (fun x v => Host.reduce IntOp.andi x v reducesTo_S1769472_S_d0 h_S_) main_v2 main_c
  let main_v4 : FVec F S4x196608x32 .f32 := Host.absf main_arg3
  let main_cst_0 : FVec F S_ .f32 := constant S_ .f32 0x7F800000#32
  let main_v5 : FVec F S4x196608x32 .f32 := broadcastInDim S4x196608x32 ![] bcast_S_S4x196608x32 main_cst_0
  let main_v6 : IVec S4x196608x32 1 := cmpf .olt main_v4 main_v5
  let main_c_1 : IVec S_ 1 := constantI S_ 1 1#1
  let main_v7 : IVec S_ 1 := (fun x v => Host.reduce IntOp.andi x v reducesTo_S4x196608x32_S_d0_1_2 h_S_) main_v6 main_c_1
  let main_v8 : IVec S_ 1 := andi main_v3 main_v7
  let main_v9 : FVec F S5x32x64 .f32 := Host.absf main_arg4
  let main_cst_2 : FVec F S_ .f32 := constant S_ .f32 0x7F800000#32
  let main_v10 : FVec F S5x32x64 .f32 := broadcastInDim S5x32x64 ![] bcast_S_S5x32x64 main_cst_2
  let main_v11 : IVec S5x32x64 1 := cmpf .olt main_v9 main_v10
  let main_c_3 : IVec S_ 1 := constantI S_ 1 1#1
  let main_v12 : IVec S_ 1 := (fun x v => Host.reduce IntOp.andi x v reducesTo_S5x32x64_S_d0_1_2 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S1769472 : Shape := ⟨1, ![1769472]⟩
abbrev S4x196608x32 : Shape := ⟨3, ![4, 196608, 32]⟩
abbrev S5x32x64 : Shape := ⟨3, ![5, 32, 64]⟩
abbrev S64 : Shape := ⟨1, ![64]⟩
abbrev S196608x32x4 : Shape := ⟨3, ![196608, 32, 4]⟩
abbrev S196608x128 : Shape := ⟨2, ![196608, 128]⟩
abbrev S1769472x1 : Shape := ⟨2, ![1769472, 1]⟩
abbrev S_ : Shape := ⟨0, ![]⟩
abbrev S1769472x128 : Shape := ⟨2, ![1769472, 128]⟩
abbrev S1x196608x128 : Shape := ⟨3, ![1, 196608, 128]⟩
abbrev S5x196608x128 : Shape := ⟨3, ![5, 196608, 128]⟩
abbrev S5x196608x32x4 : Shape := ⟨4, ![5, 196608, 32, 4]⟩
abbrev S4x196608x32x5 : Shape := ⟨4, ![4, 196608, 32, 5]⟩
abbrev S786432x160 : Shape := ⟨2, ![786432, 160]⟩
abbrev S160x64 : Shape := ⟨2, ![160, 64]⟩
abbrev S1x64 : Shape := ⟨2, ![1, 64]⟩
abbrev S786432x64 : Shape := ⟨2, ![786432, 64]⟩
abbrev S8192x160 : Shape := ⟨2, ![8192, 160]⟩
abbrev S8192x64 : Shape := ⟨2, ![8192, 64]⟩
abbrev S4x196608x64 : Shape := ⟨3, ![4, 196608, 64]⟩

abbrev nBuf : Space → Nat
  | .hbm => 97
  | .vmem => 6
  | .smem => 0
  | _ => 0

abbrev bufTy : (tb : Table) → Fin (tcTables nBuf tb) → BufTy
  | .hbm, ⟨0, _⟩ => ⟨S1769472, .i32⟩
  | .hbm, ⟨1, _⟩ => ⟨S1769472, .i32⟩
  | .hbm, ⟨2, _⟩ => ⟨S1769472, .f32⟩
  | .hbm, ⟨3, _⟩ => ⟨S4x196608x32, .f32⟩
  | .hbm, ⟨4, _⟩ => ⟨S5x32x64, .f32⟩
  | .hbm, ⟨5, _⟩ => ⟨S64, .f32⟩
  | .hbm, ⟨6, _⟩ => ⟨S196608x32x4, .f32⟩
  | .hbm, ⟨7, _⟩ => ⟨S196608x128, .f32⟩
  | .hbm, ⟨8, _⟩ => ⟨S1769472x1, .f32⟩
  | .hbm, ⟨9, _⟩ => ⟨S_, .i32⟩
  | .hbm, ⟨10, _⟩ => ⟨S1769472, .i32⟩
  | .hbm, ⟨11, _⟩ => ⟨S1769472, .i1⟩
  | .hbm, ⟨12, _⟩ => ⟨S_, .i32⟩
  | .hbm, ⟨13, _⟩ => ⟨S1769472, .i32⟩
  | .hbm, ⟨14, _⟩ => ⟨S1769472, .i32⟩
  | .hbm, ⟨15, _⟩ => ⟨S1769472, .i32⟩
  | .hbm, ⟨16, _⟩ => ⟨S1769472x1, .i32⟩
  | .hbm, ⟨17, _⟩ => ⟨S1769472x128, .f32⟩
  | .hbm, ⟨18, _⟩ => ⟨S1769472x128, .f32⟩
  | .hbm, ⟨19, _⟩ => ⟨S1769472x128, .f32⟩
  | .hbm, ⟨20, _⟩ => ⟨S_, .f32⟩
  | .hbm, ⟨21, _⟩ => ⟨S196608x128, .f32⟩
  | .hbm, ⟨22, _⟩ => ⟨S1769472x1, .i32⟩
  | .hbm, ⟨23, _⟩ => ⟨S196608x128, .f32⟩
  | .hbm, ⟨24, _⟩ => ⟨S1769472x1, .f32⟩
  | .hbm, ⟨25, _⟩ => ⟨S_, .i32⟩
  | .hbm, ⟨26, _⟩ => ⟨S1769472, .i32⟩
  | .hbm, ⟨27, _⟩ => ⟨S1769472, .i1⟩
  | .hbm, ⟨28, _⟩ => ⟨S_, .i32⟩
  | .hbm, ⟨29, _⟩ => ⟨S1769472, .i32⟩
  | .hbm, ⟨30, _⟩ => ⟨S1769472, .i32⟩
  | .hbm, ⟨31, _⟩ => ⟨S1769472, .i32⟩
  | .hbm, ⟨32, _⟩ => ⟨S1769472x1, .i32⟩
  | .hbm, ⟨33, _⟩ => ⟨S1769472x128, .f32⟩
  | .hbm, ⟨34, _⟩ => ⟨S1769472x128, .f32⟩
  | .hbm, ⟨35, _⟩ => ⟨S1769472x128, .f32⟩
  | .hbm, ⟨36, _⟩ => ⟨S_, .f32⟩
  | .hbm, ⟨37, _⟩ => ⟨S196608x128, .f32⟩
  | .hbm, ⟨38, _⟩ => ⟨S1769472x1, .i32⟩
  | .hbm, ⟨39, _⟩ => ⟨S196608x128, .f32⟩
  | .hbm, ⟨40, _⟩ => ⟨S_, .f32⟩
  | .hbm, ⟨41, _⟩ => ⟨S196608x128, .f32⟩
  | .hbm, ⟨42, _⟩ => ⟨S196608x128, .f32⟩
  | .hbm, ⟨43, _⟩ => ⟨S196608x128, .f32⟩
  | .hbm, ⟨44, _⟩ => ⟨S1769472x1, .f32⟩
  | .hbm, ⟨45, _⟩ => ⟨S_, .i32⟩
  | .hbm, ⟨46, _⟩ => ⟨S1769472, .i32⟩
  | .hbm, ⟨47, _⟩ => ⟨S1769472, .i1⟩
  | .hbm, ⟨48, _⟩ => ⟨S_, .i32⟩
  | .hbm, ⟨49, _⟩ => ⟨S1769472, .i32⟩
  | .hbm, ⟨50, _⟩ => ⟨S1769472, .i32⟩
  | .hbm, ⟨51, _⟩ => ⟨S1769472, .i32⟩
  | .hbm, ⟨52, _⟩ => ⟨S1769472x1, .i32⟩
  | .hbm, ⟨53, _⟩ => ⟨S1769472x128, .f32⟩
  | .hbm, ⟨54, _⟩ => ⟨S1769472x128, .f32⟩
  | .hbm, ⟨55, _⟩ => ⟨S1769472x128, .f32⟩
  | .hbm, ⟨56, _⟩ => ⟨S_, .f32⟩
  | .hbm, ⟨57, _⟩ => ⟨S196608x128, .f32⟩
  | .hbm, ⟨58, _⟩ => ⟨S1769472x1, .i32⟩
  | .hbm, ⟨59, _⟩ => ⟨S196608x128, .f32⟩
  | .hbm, ⟨60, _⟩ => ⟨S_, .f32⟩
  | .hbm, ⟨61, _⟩ => ⟨S196608x128, .f32⟩
  | .hbm, ⟨62, _⟩ => ⟨S196608x128, .f32⟩
  | .hbm, ⟨63, _⟩ => ⟨S196608x128, .f32⟩
  | .hbm, ⟨64, _⟩ => ⟨S1769472x1, .f32⟩
  | .hbm, ⟨65, _⟩ => ⟨S_, .i32⟩
  | .hbm, ⟨66, _⟩ => ⟨S1769472, .i32⟩
  | .hbm, ⟨67, _⟩ => ⟨S1769472, .i1⟩
  | .hbm, ⟨68, _⟩ => ⟨S_, .i32⟩
  | .hbm, ⟨69, _⟩ => ⟨S1769472, .i32⟩
  | .hbm, ⟨70, _⟩ => ⟨S1769472, .i32⟩
  | .hbm, ⟨71, _⟩ => ⟨S1769472, .i32⟩
  | .hbm, ⟨72, _⟩ => ⟨S1769472x1, .i32⟩
  | .hbm, ⟨73, _⟩ => ⟨S1769472x128, .f32⟩
  | .hbm, ⟨74, _⟩ => ⟨S1769472x128, .f32⟩
  | .hbm, ⟨75, _⟩ => ⟨S1769472x128, .f32⟩
  | .hbm, ⟨76, _⟩ => ⟨S_, .f32⟩
  | .hbm, ⟨77, _⟩ => ⟨S196608x128, .f32⟩
  | .hbm, ⟨78, _⟩ => ⟨S1769472x1, .i32⟩
  | .hbm, ⟨79, _⟩ => ⟨S196608x128, .f32⟩
  | .hbm, ⟨80, _⟩ => ⟨S_, .f32⟩
  | .hbm, ⟨81, _⟩ => ⟨S196608x128, .f32⟩
  | .hbm, ⟨82, _⟩ => ⟨S196608x128, .f32⟩
  | .hbm, ⟨83, _⟩ => ⟨S196608x128, .f32⟩
  | .hbm, ⟨84, _⟩ => ⟨S1x196608x128, .f32⟩
  | .hbm, ⟨85, _⟩ => ⟨S1x196608x128, .f32⟩
  | .hbm, ⟨86, _⟩ => ⟨S1x196608x128, .f32⟩
  | .hbm, ⟨87, _⟩ => ⟨S1x196608x128, .f32⟩
  | .hbm, ⟨88, _⟩ => ⟨S1x196608x128, .f32⟩
  | .hbm, ⟨89, _⟩ => ⟨S5x196608x128, .f32⟩
  | .hbm, ⟨90, _⟩ => ⟨S5x196608x32x4, .f32⟩
  | .hbm, ⟨91, _⟩ => ⟨S4x196608x32x5, .f32⟩
  | .hbm, ⟨92, _⟩ => ⟨S786432x160, .f32⟩
  | .hbm, ⟨93, _⟩ => ⟨S160x64, .f32⟩
  | .hbm, ⟨94, _⟩ => ⟨S1x64, .f32⟩
  | .hbm, ⟨95, _⟩ => ⟨S786432x64, .f32⟩
  | .hbm, ⟨96, _⟩ => ⟨S4x196608x64, .f32⟩
  | .local _ .vmem, ⟨0, _⟩ => ⟨S8192x160, .f32⟩
  | .local _ .vmem, ⟨1, _⟩ => ⟨S8192x160, .f32⟩
  | .local _ .vmem, ⟨2, _⟩ => ⟨S160x64, .f32⟩
  | .local _ .vmem, ⟨3, _⟩ => ⟨S1x64, .f32⟩
  | .local _ .vmem, ⟨4, _⟩ => ⟨S8192x64, .f32⟩
  | .local _ .vmem, ⟨5, _⟩ => ⟨S8192x64, .f32⟩
  | _, _ => ⟨S1769472, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_5 : Ref sig .tc := ⟨.hbm, 45, rfl⟩
abbrev main_v32 : Ref sig .tc := ⟨.hbm, 46, rfl⟩
abbrev main_v33 : Ref sig .tc := ⟨.hbm, 47, rfl⟩
abbrev main_c_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_9 : Ref sig .tc := ⟨.hbm, 65, rfl⟩
abbrev main_v48 : Ref sig .tc := ⟨.hbm, 66, rfl⟩
abbrev main_v49 : Ref sig .tc := ⟨.hbm, 67, rfl⟩
abbrev main_c_10 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_11 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_12 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x160 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S160x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S4x196608x32_S196608x32x4_1_2_0 : S4x196608x32.Transposes [1, 2, 0] S196608x32x4
  shapeCasts_S196608x32x4_S196608x128 : S196608x32x4.ShapeCasts S196608x128
  bcast_S1769472_S1769472x1_0 : S1769472.BroadcastsInDim S1769472x1 (![0] : Fin 1 → Fin S1769472x1.rank)
  bcast_S_S1769472 : S_.BroadcastsInDim S1769472 (![] : Fin 0 → Fin S1769472.rank)
  bcast_S1769472x1_S1769472x128_0_1 : S1769472x1.BroadcastsInDim S1769472x128 (![0, 1] : Fin 2 → Fin S1769472x128.rank)
  bcast_S_S196608x128 : S_.BroadcastsInDim S196608x128 (![] : Fin 0 → Fin S196608x128.rank)
  bcast_S196608x128_S1x196608x128_1_2 : S196608x128.BroadcastsInDim S1x196608x128 (![1, 2] : Fin 2 → Fin S1x196608x128.rank)
  concatenates_S1x196608x128_S1x196608x128_S1x196608x128_S1x196608x128_S1x196608x128_S5x196608x128_d0 : Shape.Concatenates [S1x196608x128, S1x196608x128, S1x196608x128, S1x196608x128, S1x196608x128] S5x196608x128 0
  shapeCasts_S5x196608x128_S5x196608x32x4 : S5x196608x128.ShapeCasts S5x196608x32x4
  transposes_S5x196608x32x4_S4x196608x32x5_3_1_2_0 : S5x196608x32x4.Transposes [3, 1, 2, 0] S4x196608x32x5
  shapeCasts_S4x196608x32x5_S786432x160 : S4x196608x32x5.ShapeCasts S786432x160
  shapeCasts_S5x32x64_S160x64 : S5x32x64.ShapeCasts S160x64
  shapeCasts_S64_S1x64 : S64.ShapeCasts S1x64
  inb_S8192x160_S8192x160_0_0 : ∀ a, (![0, 0] : Fin 2 → Nat) a + S8192x160.size a ≤ S8192x160.size a
  h_S8192x160 : 0 < S8192x160.numel
  shapeCasts_S8192x160_S8192x160 : S8192x160.ShapeCasts S8192x160
  bitsLt_bf16_f32 : FTy.bits .bf16 < FTy.bits .f32
  inb_S160x64_S160x64_0_0 : ∀ a, (![0, 0] : Fin 2 → Nat) a + S160x64.size a ≤ S160x64.size a
  h_S160x64 : 0 < S160x64.numel
  shapeCasts_S160x64_S160x64 : S160x64.ShapeCasts S160x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8192x64 : S1x64.Broadcasts S8192x64
  inb_S8192x64_S8192x64_0_0 : ∀ a, (![0, 0] : Fin 2 → Nat) a + S8192x64.size a ≤ S8192x64.size a
  h_S8192x64 : 0 < S8192x64.numel
  shapeCasts_S786432x64_S4x196608x64 : S786432x64.ShapeCasts S4x196608x64
  gather_S196608x128_S1769472x1_S1769472x128_1_0_n_n_0_1_1128_wf : GatherDims.WF S196608x128 S1769472x1 S1769472x128 [1] [0] [] [0] [] 1 ![1, 128]
  scatter_S196608x128_S1769472x1_S1769472x128_1_0_0_1_wf : ScatterDims.WF S196608x128 S1769472x1 S1769472x128 [1] [0] [0] 1
  dot_S8192x160_S160x64_S8192x64_1_0_0_1_n_n_wf : DotDims.WF S8192x160 S160x64 S8192x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x160.size a ≤ S786432x160.size a
  hwx0_0 : ∀ i : grid0.Coords, EltTy.bits .f32 = 32 ∨ (Rect.block (s := S786432x160) S8192x160.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S160x64.size a ≤ S160x64.size a
  hwx0_1 : ∀ i : grid0.Coords, EltTy.bits .f32 = 32 ∨ (Rect.block (s := S160x64) S160x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x64.size a ≤ S786432x64.size a
  hwx0_3 : ∀ i : grid0.Coords, EltTy.bits .f32 = 32 ∨ (Rect.block (s := S786432x64) S8192x64.size (cc0_transform_3 i) (hinb0_3 i)).WholeWords (EltTy.packing .f32)

variable [Facts₀]

def gather_S196608x128_S1769472x1_S1769472x128_1_0_n_n_0_1_1128 : GatherDims S196608x128 S1769472x1 S1769472x128 where
  offsetDims := [1]
  collapsedSliceDims := [0]
  operandBatchingDims := []
  startIndicesBatchingDims := []
  startIndexMap := [0]
  indexVectorDim := 1
  sliceSizes := ![1, 128]
  wf := gather_S196608x128_S1769472x1_S1769472x128_1_0_n_n_0_1_1128_wf
def scatter_S196608x128_S1769472x1_S1769472x128_1_0_0_1 : ScatterDims S196608x128 S1769472x1 S1769472x128 where
  updateWindowDims := [1]
  insertedWindowDims := [0]
  scatterDimsToOperandDims := [0]
  indexVectorDim := 1
  wf := scatter_S196608x128_S1769472x1_S1769472x128_1_0_0_1_wf
def dot_S8192x160_S160x64_S8192x64_1_0_0_1_n_n : DotDims S8192x160 S160x64 S8192x64 where
  lhsContracting := [1]
  rhsContracting := [0]
  lhsNonContracting := [0]
  rhsNonContracting := [1]
  lhsBatch := []
  rhsBatch := []
  wf := dot_S8192x160_S160x64_S8192x64_1_0_0_1_n_n_wf

abbrev win0_0 : Pipeline.Window sig grid0 :=
  Pipeline.Window.ofSpec (Memref.whole main_v71) S8192x160.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v72) S160x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v73) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v74) S8192x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1769472 : Shape := ⟨1, ![1769472]⟩
abbrev S4x196608x32 : Shape := ⟨3, ![4, 196608, 32]⟩
abbrev S5x32x64 : Shape := ⟨3, ![5, 32, 64]⟩
abbrev S64 : Shape := ⟨1, ![64]⟩
abbrev S196608x32x4 : Shape := ⟨3, ![196608, 32, 4]⟩
abbrev S196608x128 : Shape := ⟨2, ![196608, 128]⟩
abbrev S1769472x1 : Shape := ⟨2, ![1769472, 1]⟩
abbrev S_ : Shape := ⟨0, ![]⟩
abbrev S1769472x128 : Shape := ⟨2, ![1769472, 128]⟩
abbrev S1x196608x128 : Shape := ⟨3, ![1, 196608, 128]⟩
abbrev S5x196608x128 : Shape := ⟨3, ![5, 196608, 128]⟩
abbrev S5x196608x32x4 : Shape := ⟨4, ![5, 196608, 32, 4]⟩
abbrev S4x196608x32x5 : Shape := ⟨4, ![4, 196608, 32, 5]⟩
abbrev S786432x160 : Shape := ⟨2, ![786432, 160]⟩
abbrev S160x64 : Shape := ⟨2, ![160, 64]⟩
abbrev S786432x64 : Shape := ⟨2, ![786432, 64]⟩
abbrev S4x196608x64 : Shape := ⟨3, ![4, 196608, 64]⟩
abbrev S1x1x64 : Shape := ⟨3, ![1, 1, 64]⟩

abbrev nBuf : Space → Nat
  | .hbm => 99
  | .vmem => 0
  | .smem => 0
  | _ => 0

abbrev bufTy : (tb : Table) → Fin (tcTables nBuf tb) → BufTy
  | .hbm, ⟨0, _⟩ => ⟨S1769472, .i32⟩
  | .hbm, ⟨1, _⟩ => ⟨S1769472, .i32⟩
  | .hbm, ⟨2, _⟩ => ⟨S1769472, .f32⟩
  | .hbm, ⟨3, _⟩ => ⟨S4x196608x32, .f32⟩
  | .hbm, ⟨4, _⟩ => ⟨S5x32x64, .f32⟩
  | .hbm, ⟨5, _⟩ => ⟨S64, .f32⟩
  | .hbm, ⟨6, _⟩ => ⟨S196608x32x4, .f32⟩
  | .hbm, ⟨7, _⟩ => ⟨S196608x128, .f32⟩
  | .hbm, ⟨8, _⟩ => ⟨S1769472x1, .f32⟩
  | .hbm, ⟨9, _⟩ => ⟨S_, .i32⟩
  | .hbm, ⟨10, _⟩ => ⟨S1769472, .i32⟩
  | .hbm, ⟨11, _⟩ => ⟨S1769472, .i1⟩
  | .hbm, ⟨12, _⟩ => ⟨S_, .i32⟩
  | .hbm, ⟨13, _⟩ => ⟨S1769472, .i32⟩
  | .hbm, ⟨14, _⟩ => ⟨S1769472, .i32⟩
  | .hbm, ⟨15, _⟩ => ⟨S1769472, .i32⟩
  | .hbm, ⟨16, _⟩ => ⟨S1769472x1, .i32⟩
  | .hbm, ⟨17, _⟩ => ⟨S1769472x128, .f32⟩
  | .hbm, ⟨18, _⟩ => ⟨S1769472x128, .f32⟩
  | .hbm, ⟨19, _⟩ => ⟨S1769472x128, .f32⟩
  | .hbm, ⟨20, _⟩ => ⟨S_, .f32⟩
  | .hbm, ⟨21, _⟩ => ⟨S196608x128, .f32⟩
  | .hbm, ⟨22, _⟩ => ⟨S1769472x1, .i32⟩
  | .hbm, ⟨23, _⟩ => ⟨S196608x128, .f32⟩
  | .hbm, ⟨24, _⟩ => ⟨S1769472x1, .f32⟩
  | .hbm, ⟨25, _⟩ => ⟨S_, .i32⟩
  | .hbm, ⟨26, _⟩ => ⟨S1769472, .i32⟩
  | .hbm, ⟨27, _⟩ => ⟨S1769472, .i1⟩
  | .hbm, ⟨28, _⟩ => ⟨S_, .i32⟩
  | .hbm, ⟨29, _⟩ => ⟨S1769472, .i32⟩
  | .hbm, ⟨30, _⟩ => ⟨S1769472, .i32⟩
  | .hbm, ⟨31, _⟩ => ⟨S1769472, .i32⟩
  | .hbm, ⟨32, _⟩ => ⟨S1769472x1, .i32⟩
  | .hbm, ⟨33, _⟩ => ⟨S1769472x128, .f32⟩
  | .hbm, ⟨34, _⟩ => ⟨S1769472x128, .f32⟩
  | .hbm, ⟨35, _⟩ => ⟨S1769472x128, .f32⟩
  | .hbm, ⟨36, _⟩ => ⟨S_, .f32⟩
  | .hbm, ⟨37, _⟩ => ⟨S196608x128, .f32⟩
  | .hbm, ⟨38, _⟩ => ⟨S1769472x1, .i32⟩
  | .hbm, ⟨39, _⟩ => ⟨S196608x128, .f32⟩
  | .hbm, ⟨40, _⟩ => ⟨S_, .f32⟩
  | .hbm, ⟨41, _⟩ => ⟨S196608x128, .f32⟩
  | .hbm, ⟨42, _⟩ => ⟨S196608x128, .f32⟩
  | .hbm, ⟨43, _⟩ => ⟨S196608x128, .f32⟩
  | .hbm, ⟨44, _⟩ => ⟨S1769472x1, .f32⟩
  | .hbm, ⟨45, _⟩ => ⟨S_, .i32⟩
  | .hbm, ⟨46, _⟩ => ⟨S1769472, .i32⟩
  | .hbm, ⟨47, _⟩ => ⟨S1769472, .i1⟩
  | .hbm, ⟨48, _⟩ => ⟨S_, .i32⟩
  | .hbm, ⟨49, _⟩ => ⟨S1769472, .i32⟩
  | .hbm, ⟨50, _⟩ => ⟨S1769472, .i32⟩
  | .hbm, ⟨51, _⟩ => ⟨S1769472, .i32⟩
  | .hbm, ⟨52, _⟩ => ⟨S1769472x1, .i32⟩
  | .hbm, ⟨53, _⟩ => ⟨S1769472x128, .f32⟩
  | .hbm, ⟨54, _⟩ => ⟨S1769472x128, .f32⟩
  | .hbm, ⟨55, _⟩ => ⟨S1769472x128, .f32⟩
  | .hbm, ⟨56, _⟩ => ⟨S_, .f32⟩
  | .hbm, ⟨57, _⟩ => ⟨S196608x128, .f32⟩
  | .hbm, ⟨58, _⟩ => ⟨S1769472x1, .i32⟩
  | .hbm, ⟨59, _⟩ => ⟨S196608x128, .f32⟩
  | .hbm, ⟨60, _⟩ => ⟨S_, .f32⟩
  | .hbm, ⟨61, _⟩ => ⟨S196608x128, .f32⟩
  | .hbm, ⟨62, _⟩ => ⟨S196608x128, .f32⟩
  | .hbm, ⟨63, _⟩ => ⟨S196608x128, .f32⟩
  | .hbm, ⟨64, _⟩ => ⟨S1769472x1, .f32⟩
  | .hbm, ⟨65, _⟩ => ⟨S_, .i32⟩
  | .hbm, ⟨66, _⟩ => ⟨S1769472, .i32⟩
  | .hbm, ⟨67, _⟩ => ⟨S1769472, .i1⟩
  | .hbm, ⟨68, _⟩ => ⟨S_, .i32⟩
  | .hbm, ⟨69, _⟩ => ⟨S1769472, .i32⟩
  | .hbm, ⟨70, _⟩ => ⟨S1769472, .i32⟩
  | .hbm, ⟨71, _⟩ => ⟨S1769472, .i32⟩
  | .hbm, ⟨72, _⟩ => ⟨S1769472x1, .i32⟩
  | .hbm, ⟨73, _⟩ => ⟨S1769472x128, .f32⟩
  | .hbm, ⟨74, _⟩ => ⟨S1769472x128, .f32⟩
  | .hbm, ⟨75, _⟩ => ⟨S1769472x128, .f32⟩
  | .hbm, ⟨76, _⟩ => ⟨S_, .f32⟩
  | .hbm, ⟨77, _⟩ => ⟨S196608x128, .f32⟩
  | .hbm, ⟨78, _⟩ => ⟨S1769472x1, .i32⟩
  | .hbm, ⟨79, _⟩ => ⟨S196608x128, .f32⟩
  | .hbm, ⟨80, _⟩ => ⟨S_, .f32⟩
  | .hbm, ⟨81, _⟩ => ⟨S196608x128, .f32⟩
  | .hbm, ⟨82, _⟩ => ⟨S196608x128, .f32⟩
  | .hbm, ⟨83, _⟩ => ⟨S196608x128, .f32⟩
  | .hbm, ⟨84, _⟩ => ⟨S1x196608x128, .f32⟩
  | .hbm, ⟨85, _⟩ => ⟨S1x196608x128, .f32⟩
  | .hbm, ⟨86, _⟩ => ⟨S1x196608x128, .f32⟩
  | .hbm, ⟨87, _⟩ => ⟨S1x196608x128, .f32⟩
  | .hbm, ⟨88, _⟩ => ⟨S1x196608x128, .f32⟩
  | .hbm, ⟨89, _⟩ => ⟨S5x196608x128, .f32⟩
  | .hbm, ⟨90, _⟩ => ⟨S5x196608x32x4, .f32⟩
  | .hbm, ⟨91, _⟩ => ⟨S4x196608x32x5, .f32⟩
  | .hbm, ⟨92, _⟩ => ⟨S786432x160, .f32⟩
  | .hbm, ⟨93, _⟩ => ⟨S160x64, .f32⟩
  | .hbm, ⟨94, _⟩ => ⟨S786432x64, .f32⟩
  | .hbm, ⟨95, _⟩ => ⟨S4x196608x64, .f32⟩
  | .hbm, ⟨96, _⟩ => ⟨S1x1x64, .f32⟩
  | .hbm, ⟨97, _⟩ => ⟨S4x196608x64, .f32⟩
  | .hbm, ⟨98, _⟩ => ⟨S4x196608x64, .f32⟩
  | _, _ => ⟨S1769472, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_5 : Ref sig .tc := ⟨.hbm, 45, rfl⟩
abbrev main_v32 : Ref sig .tc := ⟨.hbm, 46, rfl⟩
abbrev main_v33 : Ref sig .tc := ⟨.hbm, 47, rfl⟩
abbrev main_c_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_9 : Ref sig .tc := ⟨.hbm, 65, rfl⟩
abbrev main_v48 : Ref sig .tc := ⟨.hbm, 66, rfl⟩
abbrev main_v49 : Ref sig .tc := ⟨.hbm, 67, rfl⟩
abbrev main_c_10 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_11 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_12 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩

abbrev nD : Nat := 1
abbrev τ : Topo := Topo.v7x

variable {F : FTy → Type} [FloatOps F]

class Facts₀ : Prop where
  transposes_S4x196608x32_S196608x32x4_1_2_0 : S4x196608x32.Transposes [1, 2, 0] S196608x32x4
  shapeCasts_S196608x32x4_S196608x128 : S196608x32x4.ShapeCasts S196608x128
  bcast_S1769472_S1769472x1_0 : S1769472.BroadcastsInDim S1769472x1 (![0] : Fin 1 → Fin S1769472x1.rank)
  bcast_S_S1769472 : S_.BroadcastsInDim S1769472 (![] : Fin 0 → Fin S1769472.rank)
  bcast_S1769472x1_S1769472x128_0_1 : S1769472x1.BroadcastsInDim S1769472x128 (![0, 1] : Fin 2 → Fin S1769472x128.rank)
  bcast_S_S196608x128 : S_.BroadcastsInDim S196608x128 (![] : Fin 0 → Fin S196608x128.rank)
  bcast_S196608x128_S1x196608x128_1_2 : S196608x128.BroadcastsInDim S1x196608x128 (![1, 2] : Fin 2 → Fin S1x196608x128.rank)
  concatenates_S1x196608x128_S1x196608x128_S1x196608x128_S1x196608x128_S1x196608x128_S5x196608x128_d0 : Shape.Concatenates [S1x196608x128, S1x196608x128, S1x196608x128, S1x196608x128, S1x196608x128] S5x196608x128 0
  shapeCasts_S5x196608x128_S5x196608x32x4 : S5x196608x128.ShapeCasts S5x196608x32x4
  transposes_S5x196608x32x4_S4x196608x32x5_3_1_2_0 : S5x196608x32x4.Transposes [3, 1, 2, 0] S4x196608x32x5
  shapeCasts_S4x196608x32x5_S786432x160 : S4x196608x32x5.ShapeCasts S786432x160
  shapeCasts_S5x32x64_S160x64 : S5x32x64.ShapeCasts S160x64
  shapeCasts_S786432x64_S4x196608x64 : S786432x64.ShapeCasts S4x196608x64
  bcast_S64_S1x1x64_2 : S64.BroadcastsInDim S1x1x64 (![2] : Fin 1 → Fin S1x1x64.rank)
  bcast_S1x1x64_S4x196608x64_0_1_2 : S1x1x64.BroadcastsInDim S4x196608x64 (![0, 1, 2] : Fin 3 → Fin S4x196608x64.rank)
  gather_S196608x128_S1769472x1_S1769472x128_1_0_n_n_0_1_1128_wf : GatherDims.WF S196608x128 S1769472x1 S1769472x128 [1] [0] [] [0] [] 1 ![1, 128]
  scatter_S196608x128_S1769472x1_S1769472x128_1_0_0_1_wf : ScatterDims.WF S196608x128 S1769472x1 S1769472x128 [1] [0] [0] 1
  dot_S786432x160_S160x64_S786432x64_1_0_0_1_n_n_wf : DotDims.WF S786432x160 S160x64 S786432x64 [1] [0] [0] [1] [] []

variable [Facts₀]

def gather_S196608x128_S1769472x1_S1769472x128_1_0_n_n_0_1_1128 : GatherDims S196608x128 S1769472x1 S1769472x128 where
  offsetDims := [1]
  collapsedSliceDims := [0]
  operandBatchingDims := []
  startIndicesBatchingDims := []
  startIndexMap := [0]
  indexVectorDim := 1
  sliceSizes := ![1, 128]
  wf := gather_S196608x128_S1769472x1_S1769472x128_1_0_n_n_0_1_1128_wf
def scatter_S196608x128_S1769472x1_S1769472x128_1_0_0_1 : ScatterDims S196608x128 S1769472x1 S1769472x128 where
  updateWindowDims := [1]
  insertedWindowDims := [0]
  scatterDimsToOperandDims := [0]
  indexVectorDim := 1
  wf := scatter_S196608x128_S1769472x1_S1769472x128_1_0_0_1_wf
def dot_S786432x160_S160x64_S786432x64_1_0_0_1_n_n : DotDims S786432x160 S160x64 S786432x64 where
  lhsContracting := [1]
  rhsContracting := [0]
  lhsNonContracting := [0]
  rhsNonContracting := [1]
  lhsBatch := []
  rhsBatch := []
  wf := dot_S786432x160_S160x64_S786432x64_1_0_0_1_n_n_wf

class Facts : Prop extends Facts₀ where

variable [Facts]
-- ==== Proof.KernelFrame.lean ====
/-
  The frame of `Kernel`'s @main: the host operations before the one region, the region on its 96 grid points, and the
  reshape after it.  The region's body loads a block of 8192 rows of the stacked Chebyshev features, the whole
  160 × 64 weight matrix and the bias row, multiplies, adds the bias and stores the 8192 × 64 result block; each
  point's result block is written back to its own rows of the 786432 × 64 output array.  Nothing here reads what the
  body computes: the result block is the one store's payload, named, over the blocks the point was handed.
  Stated for any float instance.
-/
import proofs.«113886_j19172734009347_1_alg».proof.Proof.Gen.Kernel.Launch
import proofs.«113886_j19172734009347_1_alg».proof.Proof.Gen.Kernel.Skeleton
import proofs.«113886_j19172734009347_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- What the core's buffers hold when the region is entered: the launch contents after the host operations that
    come before the region. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

set_option maxHeartbeats 4000000 in
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the reshape after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape after the region touches the output array and its own result only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- It writes its own result, which is none of the region's four arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-! ## The arguments are never written -/

set_option maxHeartbeats 4000000 in
/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- Nor does the reshape after it: `main_arg0` ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

set_option maxHeartbeats 4000000 in
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- Nor does the reshape after it: `main_arg1` ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

set_option maxHeartbeats 4000000 in
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- Nor does the reshape after it: `main_arg2` ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

set_option maxHeartbeats 4000000 in
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- Nor does the reshape after it: `main_arg3` ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c

set_option maxHeartbeats 4000000 in
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- Nor does the reshape after it: `main_arg4` ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg4 (by exact (by decide : ∀ w, Pipeline.arrRef spec0 w ≠ main_arg4))]
  exact V_main_arg4 m c

set_option maxHeartbeats 4000000 in
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- Nor does the reshape after it: `main_arg5` ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg5 (by exact (by decide : ∀ w, Pipeline.arrRef spec0 w ≠ main_arg5))]
  exact V_main_arg5 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the point fetches it or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether the point fetches it or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether the point fetches it or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The six arguments are no array of the region, so the frame run leaves each as the reshape after the region
    leaves it, which is as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
    ((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c)⟩) h

/-! ## The body's accesses: each a whole staging buffer -/

abbrev r0_0 : Rect S8192x160 := Rect.unit (s := S8192x160) ![0, 0] S8192x160.size inb_S8192x160_S8192x160_0_0
abbrev r0_1 : Rect S160x64 := Rect.unit (s := S160x64) ![0, 0] S160x64.size inb_S160x64_S160x64_0_0
abbrev r0_2 : Rect S1x64 := Rect.unit (s := S1x64) ![0, 0] S1x64.size inb_S1x64_S1x64_0_0
abbrev r0_3 : Rect S8192x64 := Rect.unit (s := S8192x64) ![0, 0] S8192x64.size inb_S8192x64_S8192x64_0_0

/-- What the body leaves in the output window's staging buffer: its one store, of the product-plus-bias payload
    of the three loaded blocks, over the whole buffer. -/
def out0_3 (x0 : Vec F S8192x160 .f32) (x1 : Vec F S160x64 .f32) (x2 : Vec F S1x64 .f32) : Vec F S8192x64 .f32 :=
  View.canon [⟨r0_3, k0_pay1 (View.ld x0 r0_0) (View.ld x1 r0_1) (View.ld x2 r0_2)⟩]

/-- The one store covers the buffer. -/
theorem cover0_3 (p0 : Vec F S8192x64 .f32) (y : S8192x64.Idx) :
    ∃ pc ∈ ([⟨r0_3, p0⟩] : List (View.Piece (Elt F) S8192x64 .f32)), y ∈ pc.1.set :=
  View.cover_of_tiled [⟨r0_3, p0⟩] S8192x64.size (by rfl) y

/-! ## The body's triple -/

set_option maxHeartbeats 1000000 in
/-- The body on whole staging buffers — the three inputs at read contents, the output at anything — runs to the end
    with the inputs as they were and the output at `out0_3` of them. -/
theorem sound_kernel (c : Dev nD) (E : Set ℕ) (i : grid0.Coords) (arg1 : Memref sig .tc .vmem S8192x160 .f32) (harg1 : arg1.IsWhole) (arg2 : Memref sig .tc .vmem S160x64 .f32) (harg2 : arg2.IsWhole) (arg3 : Memref sig .tc .vmem S1x64 .f32) (harg3 : arg3.IsWhole) (arg4 : Memref sig .tc .vmem S8192x64 .f32) (harg4 : arg4.IsWhole)
    (x0 : Vec F S8192x160 .f32) (x1 : Vec F S160x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The arrays as the region finds them; after the body at point `t` each input's buffer at its block and the
    output's at `out0_3` of the three input blocks; the region's invariant the scoped rest, untouched; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out0_3 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; at the end the region's arrays hold what the write-backs left
    and every other unscoped buffer what the reshape after the region leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main runs to the end, faults nowhere, and leaves its six arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (run_main m ρ)

end Cert.Kernel.Frame

end
-- ==== Proof.KernelIdealFrame.lean ====
/-
  The frame of `KernelIdeal`'s @main: the host operations before the one region, the region on its 96 grid points, and the
  reshape after it.  The region's body loads a block of 8192 rows of the stacked Chebyshev features, the whole
  160 × 64 weight matrix and the bias row, multiplies, adds the bias and stores the 8192 × 64 result block; each
  point's result block is written back to its own rows of the 786432 × 64 output array.  Nothing here reads what the
  body computes: the result block is the one store's payload, named, over the blocks the point was handed.
  Stated for any float instance.
-/
import proofs.«113886_j19172734009347_1_alg».proof.Proof.Gen.KernelIdeal.Launch
import proofs.«113886_j19172734009347_1_alg».proof.Proof.Gen.KernelIdeal.Skeleton
import proofs.«113886_j19172734009347_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- What the core's buffers hold when the region is entered: the launch contents after the host operations that
    come before the region. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

set_option maxHeartbeats 4000000 in
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the reshape after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape after the region touches the output array and its own result only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- It writes its own result, which is none of the region's four arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-! ## The arguments are never written -/

set_option maxHeartbeats 4000000 in
/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- Nor does the reshape after it: `main_arg0` ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

set_option maxHeartbeats 4000000 in
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- Nor does the reshape after it: `main_arg1` ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

set_option maxHeartbeats 4000000 in
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- Nor does the reshape after it: `main_arg2` ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

set_option maxHeartbeats 4000000 in
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- Nor does the reshape after it: `main_arg3` ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c

set_option maxHeartbeats 4000000 in
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- Nor does the reshape after it: `main_arg4` ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg4 (by exact (by decide : ∀ w, Pipeline.arrRef spec0 w ≠ main_arg4))]
  exact V_main_arg4 m c

set_option maxHeartbeats 4000000 in
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- Nor does the reshape after it: `main_arg5` ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg5 (by exact (by decide : ∀ w, Pipeline.arrRef spec0 w ≠ main_arg5))]
  exact V_main_arg5 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the point fetches it or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether the point fetches it or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether the point fetches it or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The six arguments are no array of the region, so the frame run leaves each as the reshape after the region
    leaves it, which is as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
    ((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c)⟩) h

/-! ## The body's accesses: each a whole staging buffer -/

abbrev r0_0 : Rect S8192x160 := Rect.unit (s := S8192x160) ![0, 0] S8192x160.size inb_S8192x160_S8192x160_0_0
abbrev r0_1 : Rect S160x64 := Rect.unit (s := S160x64) ![0, 0] S160x64.size inb_S160x64_S160x64_0_0
abbrev r0_2 : Rect S1x64 := Rect.unit (s := S1x64) ![0, 0] S1x64.size inb_S1x64_S1x64_0_0
abbrev r0_3 : Rect S8192x64 := Rect.unit (s := S8192x64) ![0, 0] S8192x64.size inb_S8192x64_S8192x64_0_0

/-- What the body leaves in the output window's staging buffer: its one store, of the product-plus-bias payload
    of the three loaded blocks, over the whole buffer. -/
def out0_3 (x0 : Vec F S8192x160 .f32) (x1 : Vec F S160x64 .f32) (x2 : Vec F S1x64 .f32) : Vec F S8192x64 .f32 :=
  View.canon [⟨r0_3, k0_pay1 (View.ld x0 r0_0) (View.ld x1 r0_1) (View.ld x2 r0_2)⟩]

/-- The one store covers the buffer. -/
theorem cover0_3 (p0 : Vec F S8192x64 .f32) (y : S8192x64.Idx) :
    ∃ pc ∈ ([⟨r0_3, p0⟩] : List (View.Piece (Elt F) S8192x64 .f32)), y ∈ pc.1.set :=
  View.cover_of_tiled [⟨r0_3, p0⟩] S8192x64.size (by rfl) y

/-! ## The body's triple -/

set_option maxHeartbeats 1000000 in
/-- The body on whole staging buffers — the three inputs at read contents, the output at anything — runs to the end
    with the inputs as they were and the output at `out0_3` of them. -/
theorem sound_kernel (c : Dev nD) (E : Set ℕ) (i : grid0.Coords) (arg1 : Memref sig .tc .vmem S8192x160 .f32) (harg1 : arg1.IsWhole) (arg2 : Memref sig .tc .vmem S160x64 .f32) (harg2 : arg2.IsWhole) (arg3 : Memref sig .tc .vmem S1x64 .f32) (harg3 : arg3.IsWhole) (arg4 : Memref sig .tc .vmem S8192x64 .f32) (harg4 : arg4.IsWhole)
    (x0 : Vec F S8192x160 .f32) (x1 : Vec F S160x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The arrays as the region finds them; after the body at point `t` each input's buffer at its block and the
    output's at `out0_3` of the three input blocks; the region's invariant the scoped rest, untouched; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out0_3 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; at the end the region's arrays hold what the write-backs left
    and every other unscoped buffer what the reshape after the region leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main runs to the end, faults nowhere, and leaves its six arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (run_main m ρ)

end Cert.KernelIdeal.Frame

end
-- ==== Proof.Payload.lean ====
/-
  What the region's body stores, read at one entry of the 8192 × 64 block: the body rounds the feature block and the
  weight matrix to bf16 (the identity on extended reals), multiplies them into a zero accumulator and adds the bias row
  broadcast down the rows.  At entry (p, q) that is the sum over k of x (p, k) · w (k, q), plus b (0, q).
-/
import proofs.«113886_j19172734009347_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx

local notation "dotK" => dot_S8192x160_S160x64_S8192x64_1_0_0_1_n_n

theorem lhs0 (i : S8192x64.Idx) (q : (dotK).contr.Idx) : ((dotK).lhsIdx i q 0).val = (i 0).val := by
  unfold DotDims.lhsIdx
  rw [dif_neg (show ¬(0 : Fin S8192x160.rank) ∈ (dotK).lhsBatch by decide), dif_pos (show (0 : Fin S8192x160.rank) ∈ (dotK).lhsNonContracting by decide)]
  rfl
theorem lhs1 (i : S8192x64.Idx) (q : (dotK).contr.Idx) : ((dotK).lhsIdx i q 1).val = (q ⟨0, by decide⟩).val :=
  (dotK).lhsIdx_val_of_single rfl i q
theorem rhs0 (i : S8192x64.Idx) (q : (dotK).contr.Idx) : ((dotK).rhsIdx i q 0).val = (q ⟨0, by decide⟩).val :=
  (dotK).rhsIdx_val_of_single rfl i q
theorem rhs1 (i : S8192x64.Idx) (q : (dotK).contr.Idx) : ((dotK).rhsIdx i q 1).val = (i 1).val := by
  unfold DotDims.rhsIdx
  rw [dif_neg (show ¬(1 : Fin S160x64.rank) ∈ (dotK).rhsBatch by decide), dif_pos (show (1 : Fin S160x64.rank) ∈ (dotK).rhsNonContracting by decide)]
  rfl

/-- The product into the zero accumulator at entry (p, q): the sum over the one contracted coordinate. -/
theorem matmul_entry (l : FVec Ideal S8192x160 .bf16) (r : FVec Ideal S160x64 .bf16) (p : Fin 8192) (q : Fin 64) :
    matmul (dotK) none l r (constant S8192x64 .f32 0x00000000#32) (ix2 p q) = ∑ k : Fin 160, l (ix2 p k) * r (ix2 k q) := by
  show FloatOps.matmul (dotK) none l r (constant S8192x64 .f32 0x00000000#32) (ix2 p q) = _
  rw [Ideal.matmul_constant_zero_apply, ← Equiv.sum_comp (contrEquiv1 (dotK) 160 rfl rfl).symm]
  refine Finset.sum_congr rfl fun k _ => ?_
  have hk := contrEquiv1_symm_val (dotK) 160 rfl rfl k
  have el : (dotK).lhsIdx (ix2 p q) ((contrEquiv1 (dotK) 160 rfl rfl).symm k) = ix2 p k := funext fun a => Fin.ext (by
    match a with
    | ⟨0, _⟩ => exact lhs0 _ _
    | ⟨1, _⟩ => exact (lhs1 _ _).trans hk)
  have er : (dotK).rhsIdx (ix2 p q) ((contrEquiv1 (dotK) 160 rfl rfl).symm k) = ix2 k q := funext fun a => Fin.ext (by
    match a with
    | ⟨0, _⟩ => exact (rhs0 _ _).trans hk
    | ⟨1, _⟩ => exact rhs1 _ _)
  rw [el, er]

/-- The body's stored value at entry (p, q) of the block. -/
theorem pay_entry (x0 : Vec Ideal S8192x160 .f32) (x1 : Vec Ideal S160x64 .f32) (x2 : Vec Ideal S1x64 .f32) (p : Fin 8192) (q : Fin 64) :
    k0_pay1 (F := Ideal) x0 x1 x2 (ix2 p q) = (∑ k : Fin 160, x0 (ix2 p k) * x1 (ix2 k q)) + x2 (ix2 (0 : Fin 1) q) := by
  unfold k0_pay1
  rw [shapeCast_self, shapeCast_self, shapeCast_self]
  refine (addf_apply _ _ _).trans ?_
  rw [matmul_entry, broadcastTo_1b_ab_apply]
  rfl

end Cert.KernelIdeal.Payload

end
-- ==== Proof.Spec.lean ====
/-
  The dense projection as one function of its three operands, index by index, over the extended reals: row `p`,
  column `q` of the result is the sum over the 160 stacked feature coordinates `k` of `x (p, k) · w (k, q)`, plus the
  bias `b (0, q)`.  Stated over the literal shapes of the whole 786432-row array.
-/
import Idealize.ShloMosaic.PureOps.Ideal
import Idealize.ShloMosaic.Lib.ValueIdx

noncomputable section

namespace Cert.ChebProj

open Idealize.ShloMosaic Idealize.ShloMosaic.ValueIdx

/-- `x · w + b`, the bias row added to every row of the product. -/
def proj (x : (⟨2, ![786432, 160]⟩ : Shape).Idx → EReal) (w : (⟨2, ![160, 64]⟩ : Shape).Idx → EReal)
    (b : (⟨2, ![1, 64]⟩ : Shape).Idx → EReal) : (⟨2, ![786432, 64]⟩ : Shape).Idx → EReal :=
  fun i => (∑ k : Fin 160, x (ix2 (⟨(i 0).val, idx2_lt0 i⟩ : Fin 786432) k) * w (ix2 k (⟨(i 1).val, idx2_lt1 i⟩ : Fin 64)))
    + b (ix2 (0 : Fin 1) (⟨(i 1).val, idx2_lt1 i⟩ : Fin 64))

/-- The same at an index given by its coordinates. -/
theorem proj_ix2 (x : (⟨2, ![786432, 160]⟩ : Shape).Idx → EReal) (w : (⟨2, ![160, 64]⟩ : Shape).Idx → EReal)
    (b : (⟨2, ![1, 64]⟩ : Shape).Idx → EReal) (p : Fin 786432) (q : Fin 64) :
    proj x w b (ix2 p q) = (∑ k : Fin 160, x (ix2 p k) * w (ix2 k q)) + b (ix2 (0 : Fin 1) q) := rfl

end Cert.ChebProj

end
-- ==== Proof.KernelIdealValue.lean ====
/-
  What the idealized kernel's result array holds after the run.  Grid point `t` is handed rows
  `8192·t … 8192·t + 8191` of the stacked features together with the whole weight matrix and bias row, and writes
  back the same rows of the output; the 96 blocks tile the 786432 rows.  So the output array is the dense projection
  `x · w + b` of the three arrays the region finds, and @main's result is its reshape to [4, 196608, 64].
-/
import proofs.«113886_j19172734009347_1_alg».proof.Proof.KernelIdealFrame
import proofs.«113886_j19172734009347_1_alg».proof.Proof.Payload
import proofs.«113886_j19172734009347_1_alg».proof.Proof.Spec

set_option maxRecDepth 16384

noncomputable section

namespace Cert.KernelIdeal.Result

open Cert.KernelIdeal Cert.KernelIdeal.Gen Cert.KernelIdeal.Frame Cert.ChebProj
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the feature and output windows move down the rows with the point, the
    weight and bias windows stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- A block of rows `8192·r …` of `x`, all of `w` and all of `b` give, through the body's stored value, the same rows
    of the projection. -/
theorem block_entry (X : (⟨2, ![786432, 160]⟩ : Shape).Idx → EReal) (W : (⟨2, ![160, 64]⟩ : Shape).Idx → EReal)
    (B : (⟨2, ![1, 64]⟩ : Shape).Idx → EReal)
    (x0 : Vec Ideal S8192x160 .f32) (x1 : Vec Ideal S160x64 .f32) (x2 : Vec Ideal S1x64 .f32)
    (row : Fin 8192 → Fin 786432)
    (h0 : ∀ (p : Fin 8192) (k : Fin 160), x0 (ix2 p k) = X (ix2 (row p) k))
    (h1 : ∀ (k : Fin 160) (q : Fin 64), x1 (ix2 k q) = W (ix2 k q))
    (h2 : ∀ q : Fin 64, x2 (ix2 (0 : Fin 1) q) = B (ix2 (0 : Fin 1) q))
    (p : Fin 8192) (q : Fin 64) :
    k0_pay1 (F := Ideal) x0 x1 x2 (ix2 p q) = proj X W B (ix2 (row p) q) := by
  rw [Payload.pay_entry, proj_ix2, h2]
  exact congrArg (· + B (ix2 (0 : Fin 1) q)) (Finset.sum_congr rfl fun k _ => by rw [h0, h1])

set_option maxHeartbeats 2000000 in
/-- For ANY three arrays: the body's stored value of their blocks at point `t`, read through the output window, is
    block `t` of their projection. -/
theorem block_eq (c : Dev nD) (t : Fin cfg0.N)
    (X : Buf (Elt Ideal) ((c.tc : Thread nD τ).loc (Pipeline.arrRef spec0 0)))
    (W : Buf (Elt Ideal) ((c.tc : Thread nD τ).loc (Pipeline.arrRef spec0 1)))
    (B : Buf (Elt Ideal) ((c.tc : Thread nD τ).loc (Pipeline.arrRef spec0 2))) :
    (win0 3).cut (grid0.coords t)
        (k0_pay1 (F := Ideal) (View.read (Elt Ideal) ((View.whole main_v71).slice ((win0 0).rect t)) X)
          (View.read (Elt Ideal) ((View.whole main_v72).slice ((win0 1).rect t)) W)
          (View.read (Elt Ideal) ((View.whole main_v73).slice ((win0 2).rect t)) B))
      = View.read (Elt Ideal) ((View.whole main_v74).slice ((win0 3).rect t)) (proj X W B) := by
  obtain ⟨e0, e1, e2, e3, e4, e5, e6, e7⟩ := idx_facts t
  have hN : cfg0.N = 96 := N_0
  have ht : t.val < 96 := hN ▸ t.isLt
  funext j
  obtain ⟨p, q, rfl⟩ : ∃ (p : Fin 8192) (q : Fin 64), j = ix2 p q := ⟨j 0, j 1, eq_ix2 j⟩
  show k0_pay1 (F := Ideal) (((cfg0.win 0).blk t).view.read (Elt Ideal) X) (((cfg0.win 1).blk t).view.read (Elt Ideal) W)
      (((cfg0.win 2).blk t).view.read (Elt Ideal) B) (ix2 p q)
    = proj X W B (((cfg0.win 3).blk t).view.emb (ix2 p q))
  refine (block_entry X W B (((cfg0.win 0).blk t).view.read (Elt Ideal) X) (((cfg0.win 1).blk t).view.read (Elt Ideal) W)
    (((cfg0.win 2).blk t).view.read (Elt Ideal) B)
    (fun p => ⟨t.val * 8192 + p.val, by have := p.isLt; omega⟩) ?_ ?_ ?_ p q).trans ?_
  · intro p k
    show X (((cfg0.win 0).blk t).view.emb (ix2 p k)) = X (ix2 (⟨t.val * 8192 + p.val, by have := p.isLt; omega⟩ : Fin 786432) k)
    refine congrArg X (funext fun a => Fin.ext ?_)
    match a with
    | ⟨0, _⟩ => show win0_0.index t (0 : Fin 2) * 8192 + 1 * p.val = t.val * 8192 + p.val; omega
    | ⟨1, _⟩ => show win0_0.index t (1 : Fin 2) * 160 + 1 * k.val = k.val; omega
  · intro k q
    show W (((cfg0.win 1).blk t).view.emb (ix2 k q)) = W (ix2 k q)
    refine congrArg W (funext fun a => Fin.ext ?_)
    match a with
    | ⟨0, _⟩ => show win0_1.index t (0 : Fin 2) * 160 + 1 * k.val = k.val; omega
    | ⟨1, _⟩ => show win0_1.index t (1 : Fin 2) * 64 + 1 * q.val = q.val; omega
  · intro q
    show B (((cfg0.win 2).blk t).view.emb (ix2 (0 : Fin 1) q)) = B (ix2 (0 : Fin 1) q)
    refine congrArg B (funext fun a => Fin.ext ?_)
    match a with
    | ⟨0, _⟩ => show win0_2.index t (0 : Fin 2) * 1 + 1 * 0 = 0; omega
    | ⟨1, _⟩ => show win0_2.index t (1 : Fin 2) * 64 + 1 * q.val = q.val; omega
  · refine congrArg (proj X W B) (funext fun a => Fin.ext ?_)
    match a with
    | ⟨0, _⟩ => show t.val * 8192 + p.val = win0_3.index t (0 : Fin 2) * 8192 + 1 * p.val; omega
    | ⟨1, _⟩ => show q.val = win0_3.index t (1 : Fin 2) * 64 + 1 * q.val; omega

/-- The three arrays the region finds: the stacked features, the weights, the bias row. -/
abbrev feat (c : Dev nD) := V m c (Pipeline.arrRef spec0 0)
abbrev wts (c : Dev nD) := V m c (Pipeline.arrRef spec0 1)
abbrev bias (c : Dev nD) := V m c (Pipeline.arrRef spec0 2)

/-- What point `t` writes back is block `t` of the projection of the arrays as the region finds them. -/
theorem flushed_eq (c : Dev nD) (t : Fin cfg0.N) :
    (dats m 0 c).flushed 3 t = ((cfg0.win 3).blk t).view.read (Elt Ideal)
      (proj (V m c (Pipeline.arrRef spec0 0)) (V m c (Pipeline.arrRef spec0 1)) (V m c (Pipeline.arrRef spec0 2))) := by
  show (cfg0.win 3).cut (grid0.coords t) ((dats m 0 c).after 3 t) = _
  rw [after0_3]
  unfold out0_3 iblk
  rw [View.canon_unit_zero hz]
  simp only [View.ld_unit_zero (S := S8192x160) hz, View.ld_unit_zero (S := S160x64) hz, View.ld_unit_zero (S := S1x64) hz]
  generalize V m c (Pipeline.arrRef spec0 0) = X
  generalize V m c (Pipeline.arrRef spec0 1) = W
  generalize V m c (Pipeline.arrRef spec0 2) = B
  exact block_eq c t X W B

/-- An index of the output array is in point `t`'s block iff each coordinate is in the block's range. -/
theorem mem_blk (t : Fin cfg0.N) (i : S786432x64.Idx) :
    i ∈ ((cfg0.win 3).blk t).view.set ↔ ∀ a : Fin 2, win0_3.index t a * S8192x64.size a ≤ (i a).val ∧ (i a).val < win0_3.index t a * S8192x64.size a + S8192x64.size a := by
  show i ∈ ((View.whole main_v74).slice (win0_3.rect t)).set ↔ _
  rw [View.set_slice_whole, Rect.mem_set_unit]
  exact Iff.rfl

/-- Row `r` of the output lies in the block of point `r / 8192`. -/
theorem cover (i : S786432x64.Idx) : ∃ t : Fin cfg0.N, (cfg0.win 3).flush t = true ∧ i ∈ ((cfg0.win 3).blk t).view.set := by
  have hi0 : (i 0).val < 786432 := (i 0).isLt
  have hi1 : (i 1).val < 64 := (i 1).isLt
  have hN : cfg0.N = 96 := N_0
  let t : Fin cfg0.N := ⟨(i 0).val / 8192, by rw [hN]; omega⟩
  obtain ⟨e0, e1, e2, e3, e4, e5, e6, e7⟩ := idx_facts t
  have ht : t.val = (i 0).val / 8192 := rfl
  refine ⟨t, flush0_3 t, ?_⟩
  rw [mem_blk]
  intro a
  match a with
  | ⟨0, _⟩ => show win0_3.index t (0 : Fin 2) * 8192 ≤ (i 0).val ∧ (i 0).val < win0_3.index t (0 : Fin 2) * 8192 + 8192; omega
  | ⟨1, _⟩ => show win0_3.index t (1 : Fin 2) * 64 ≤ (i 1).val ∧ (i 1).val < win0_3.index t (1 : Fin 2) * 64 + 64; omega

/-- The output array after the region: the projection of what the region found. -/
theorem final (c : Dev nD) : (dats m 0 c).arrAt 3 cfg0.N = proj (V m c (Pipeline.arrRef spec0 0)) (V m c (Pipeline.arrRef spec0 1)) (V m c (Pipeline.arrRef spec0 2)) :=
  (dats m 0 c).arrAt_eq_of_cover 3 (proj (V m c (Pipeline.arrRef spec0 0)) (V m c (Pipeline.arrRef spec0 1)) (V m c (Pipeline.arrRef spec0 2))) (fun t _ => flushed_eq m c t) cover

/-- @main's result: the reshape, after the region, of the output array. -/
theorem tail_result (c : Dev nD) :
    Pipeline.afterTail₀ cfgs (dats m) 0 (V0 m) [hostOps1] c main_v75
      = shapeCast S4x196608x64 (proj (V m c (Pipeline.arrRef spec0 0)) (V m c (Pipeline.arrRef spec0 1)) (V m c (Pipeline.arrRef spec0 2))) shapeCasts_S786432x64_S4x196608x64 := by
  unfold Pipeline.afterTail₀
  show StableHlo.after hostOps1 _ (Proc.devRef .tc main_v75) = _
  after_results
  have e : Pipeline.withArrays (cfgs 0).spec c (V0 m c) (fun w => (dats m 0 c).arrAt w (cfgs 0).N) (Proc.devRef .tc main_v74)
      = proj (V m c (Pipeline.arrRef spec0 0)) (V m c (Pipeline.arrRef spec0 1)) (V m c (Pipeline.arrRef spec0 2)) :=
    (Pipeline.withArrays_arr spec0 launch0.win.arr_inj c _ _ 3).trans (final m c)
  rw [e]
  rfl

/-- The idealized kernel's run, read: @main's result is the reshaped projection of the three arrays the region
    finds, and the six arguments end as launched. -/
theorem run : θ_run defs (onTc (τ := τ) (main (F := Ideal))) ⟨m, fun _ => 0, ρ⟩ fun r => ∀ c : Dev nD,
      r.2.mem ((c.tc : Thread nD τ).loc main_v75)
        = shapeCast S4x196608x64 (proj (V m c (Pipeline.arrRef spec0 0)) (V m c (Pipeline.arrRef spec0 1)) (V m c (Pipeline.arrRef spec0 2))) shapeCasts_S786432x64_S4x196608x64
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨
    ((h c).2 main_v75 (Pipeline.mem_restRefs_of main_v75 (by decide) (by decide))).trans (tail_result m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c)⟩)
    (run_main m ρ)

end Cert.KernelIdeal.Result

end
-- ==== Proof.LibHostNary5.lean ====
/-
  A host operation of FIVE operands (a concatenate of five arrays, printed over the literal family of its five
  operand references) leaves at its result reference its function applied to the five operands' contents, each read
  at its own reference — so that what the operands hold can go on being computed, which it cannot while the operands
  are read through a family indexed by a bound variable.  The form for five of the library's statement for four.
-/
import Idealize.ShloMosaic.Lib.StableHlo.Run

noncomputable section

namespace Idealize.ShloMosaic.StableHlo

variable {τ : Topo} {sig : RefSig} {Val : EltTy → Type}
variable {x a b c e y : Ref sig .tc}

/-- The result of a five-operand host operation, each operand's contents at its own reference. -/
theorem nary5_result
    (f : ((k : Fin 5) → ((![x, a, b, c, e] : Fin 5 → Ref sig .tc) k).ty.Contents Val) → y.ty.Contents Val) (hxs hy)
    (F : Valuation τ sig Val) :
    (nary (τ := τ) ![x, a, b, c, e] y f hxs hy).result F (Proc.devRef .tc y)
      = f (Fin.cons (F (Proc.devRef .tc x)) (Fin.cons (F (Proc.devRef .tc a)) (Fin.cons (F (Proc.devRef .tc b))
          (Fin.cons (F (Proc.devRef .tc c)) (Fin.cons (F (Proc.devRef .tc e)) (fun i => i.elim0)))))) := by
  rw [nary_result]; congr 1; funext k; fin_cases k <;> rfl

/-- The same, stated for one pass of `simp` (the result reference un-indexed, as the library's forms are). -/
theorem nary5_result'
    (f : ((k : Fin 5) → ((![x, a, b, c, e] : Fin 5 → Ref sig .tc) k).ty.Contents Val) → y.ty.Contents Val) (hxs hy)
    (F : Valuation τ sig Val) :
    (nary (τ := τ) ![x, a, b, c, e] y f hxs hy).result F (no_index (Proc.devRef .tc y))
      = f (Fin.cons (F (Proc.devRef .tc x)) (Fin.cons (F (Proc.devRef .tc a)) (Fin.cons (F (Proc.devRef .tc b))
          (Fin.cons (F (Proc.devRef .tc c)) (Fin.cons (F (Proc.devRef .tc e)) (fun i => i.elim0)))))) :=
  nary5_result f hxs hy F

end Idealize.ShloMosaic.StableHlo

end
-- ==== Proof.Bridge.lean ====
/-
  The two programs compute one function.  Both stack the same five Chebyshev feature arrays (the input re-laid,
  then four sparse products by gather, scale and segment sum, combined by the three-term recurrence) and re-lay them
  as one 786432 × 160 matrix by the same host operations; the kernel's region then finds that matrix, the weights
  re-laid as 160 × 64 and the bias as a 1 × 64 row, and its result is the reshape of their projection `x · w + b`.
  The reference multiplies the same two matrices on the host, reshapes, and adds the bias broadcast over the leading
  axes.  Entry by entry both are the sum over the 160 stacked coordinates of feature times weight, plus the bias of
  the entry's column; no law of arithmetic beyond reading both sides at an index is used.
-/
import proofs.«113886_j19172734009347_1_alg».proof.Proof.KernelIdealFrame
import proofs.«113886_j19172734009347_1_alg».proof.Proof.Spec
import proofs.«113886_j19172734009347_1_alg».proof.Proof.Gen.ReferenceIdeal.Read
import proofs.«113886_j19172734009347_1_alg».proof.Proof.LibHostNary5

set_option maxRecDepth 16384

noncomputable section

namespace Cert.Bridge

open Idealize.ShloMosaic Idealize.ShloMosaic.TcCoe Idealize.ShloMosaic.StableHlo Idealize.ShloMosaic.ValueIdx Idealize.SL.Sem
open Cert.ChebProj

section Entry

variable {F : FTy → Type} [FloatOps F]
variable (m : (ℓ : Loc Cert.KernelIdeal.nD Cert.KernelIdeal.τ Cert.KernelIdeal.sig) → Buf (Elt F) ℓ)

set_option maxHeartbeats 40000000 in
/-- The feature matrix the region finds is the reference's stage of the same name: the same host operations of the
    same four arguments. -/
theorem entry_features (c : Dev Cert.KernelIdeal.nD) :
    Cert.KernelIdeal.Frame.V m c (Pipeline.arrRef Cert.KernelIdeal.spec0 0)
      = Cert.ReferenceIdeal.Read.val_main_v71 (F := F) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) := by
  show StableHlo.after (List.flatten [Cert.KernelIdeal.Gen.hostOps0]) (fun b => m (c, b)) (Proc.devRef .tc Cert.KernelIdeal.main_v71) = _
  simp only [Cert.KernelIdeal.Gen.hostOps0, List.flatten_cons, List.flatten_nil, List.append_nil]
  simp (disch := decide) only [after_cons, after_nil, nullary_result', unary_result', binary_result', ternary_result', reshape_result',
    nary5_result', nullary_result_ne', unary_result_ne', binary_result_ne', ternary_result_ne', reshape_result_ne', nary_result_ne']
  rfl

set_option maxHeartbeats 40000000 in
/-- The weight matrix the region finds: the weights re-laid as 160 × 64. -/
theorem entry_weights (c : Dev Cert.KernelIdeal.nD) :
    Cert.KernelIdeal.Frame.V m c (Pipeline.arrRef Cert.KernelIdeal.spec0 1) = Cert.ReferenceIdeal.Read.val_main_v72 (F := F) (m ((c.tc : Thread Cert.KernelIdeal.nD Cert.KernelIdeal.τ).loc Cert.KernelIdeal.main_arg4)) := by
  show StableHlo.after (List.flatten [Cert.KernelIdeal.Gen.hostOps0]) (fun b => m (c, b)) (Proc.devRef .tc Cert.KernelIdeal.main_v72) = _
  simp only [Cert.KernelIdeal.Gen.hostOps0, List.flatten_cons, List.flatten_nil, List.append_nil]
  simp (disch := decide) only [after_cons, after_nil, nullary_result', unary_result', binary_result', ternary_result', reshape_result',
    nary5_result', nullary_result_ne', unary_result_ne', binary_result_ne', ternary_result_ne', reshape_result_ne', nary_result_ne']
  rfl

set_option maxHeartbeats 40000000 in
/-- The bias row the region finds: the bias re-laid as 1 × 64. -/
theorem entry_bias (c : Dev Cert.KernelIdeal.nD) :
    Cert.KernelIdeal.Frame.V m c (Pipeline.arrRef Cert.KernelIdeal.spec0 2) = shapeCast Cert.KernelIdeal.S1x64 (m ((c.tc : Thread Cert.KernelIdeal.nD Cert.KernelIdeal.τ).loc Cert.KernelIdeal.main_arg5)) Cert.KernelIdeal.Facts₀.shapeCasts_S64_S1x64 := by
  show StableHlo.after (List.flatten [Cert.KernelIdeal.Gen.hostOps0]) (fun b => m (c, b)) (Proc.devRef .tc Cert.KernelIdeal.main_v73) = _
  simp only [Cert.KernelIdeal.Gen.hostOps0, List.flatten_cons, List.flatten_nil, List.append_nil]
  simp (disch := decide) only [after_cons, after_nil, nullary_result', unary_result', binary_result', ternary_result', reshape_result',
    nary5_result', nullary_result_ne', unary_result_ne', binary_result_ne', ternary_result_ne', reshape_result_ne', nary_result_ne']
  rfl

end Entry

/-- The reshaped projection of the reference's own feature and weight stages and the re-laid bias IS the reference's
    result, entry by entry: the host product at row `r`, column `q` is the same sum over the stacked coordinate, the
    two reshapes read the same row-major position, and the broadcast bias at any leading coordinates is the bias of
    the column. -/
theorem result_eq (a0 a1 : (⟨Cert.ReferenceIdeal.S1769472, .i32⟩ : BufTy).Contents (Elt Ideal)) (a2 : (⟨Cert.ReferenceIdeal.S1769472, .f32⟩ : BufTy).Contents (Elt Ideal))
    (a3 : (⟨Cert.ReferenceIdeal.S4x196608x32, .f32⟩ : BufTy).Contents (Elt Ideal)) (a4 : (⟨Cert.ReferenceIdeal.S5x32x64, .f32⟩ : BufTy).Contents (Elt Ideal))
    (a5 : (⟨Cert.ReferenceIdeal.S64, .f32⟩ : BufTy).Contents (Elt Ideal)) :
    shapeCast Cert.KernelIdeal.S4x196608x64 (proj (Cert.ReferenceIdeal.Read.val_main_v71 (F := Ideal) a0 a1 a2 a3) (Cert.ReferenceIdeal.Read.val_main_v72 (F := Ideal) a4)
        (shapeCast Cert.KernelIdeal.S1x64 a5 Cert.KernelIdeal.Facts₀.shapeCasts_S64_S1x64)) Cert.KernelIdeal.Facts₀.shapeCasts_S786432x64_S4x196608x64
      = Cert.ReferenceIdeal.Read.val_main_v77 (F := Ideal) a0 a1 a2 a3 a4 a5 := by
  funext i
  rw [Cert.ReferenceIdeal.Read.val_main_v77_apply, Cert.ReferenceIdeal.Read.val_main_v74_apply, Cert.ReferenceIdeal.Read.val_main_v73_apply, Cert.ReferenceIdeal.Read.val_main_v76_apply,
    Cert.ReferenceIdeal.Read.val_main_v75_apply]
  generalize Cert.ReferenceIdeal.Read.val_main_v71 (F := Ideal) a0 a1 a2 a3 = X
  generalize Cert.ReferenceIdeal.Read.val_main_v72 (F := Ideal) a4 = W
  have h0 : (i 0).val < 4 := (i 0).isLt
  have h1 : (i 1).val < 196608 := (i 1).isLt
  have h2 : (i 2).val < 64 := (i 2).isLt
  refine (shapeCast_apply _ _ i (Cert.ReferenceIdeal.Read.idx_main_v74 i) (by
    rewrite [Shape.rowMajor_val_two, Shape.rowMajor_val_three]
    show (((i 0).val * 196608 + (i 1).val) * 64 + (i 2).val) / 64 * 64 + (((i 0).val * 196608 + (i 1).val) * 64 + (i 2).val) % 64 = ((i 0).val * 196608 + (i 1).val) * 64 + (i 2).val
    omega)).trans ?_
  unfold proj
  refine congrArg₂ (· + ·) (Finset.sum_congr rfl fun k _ => congrArg₂ (· * ·) (congrArg X ?_) (congrArg W ?_)) ?_
  · funext a; match a with | ⟨0, _⟩ => rfl | ⟨1, _⟩ => rfl
  · funext a; match a with | ⟨0, _⟩ => rfl | ⟨1, _⟩ => rfl
  · refine shapeCast_apply a5 _ _ (Cert.ReferenceIdeal.Read.idx_main_v75 (Cert.ReferenceIdeal.Read.idx_main_v76 i)) ?_
    rewrite [Shape.rowMajor_val_one, Shape.rowMajor_val_two]
    show (i 2).val = 0 * 64 + (((i 0).val * 196608 + (i 1).val) * 64 + (i 2).val) % 64
    omega

end Cert.Bridge

end
-- ==== Proof.lean ====
/-
  The kernel stacks five Chebyshev feature arrays on the host — the input re-laid as a 196608 × 128 matrix and four
  sparse products (gather by column number, scale by the matrix value, segment sum by row number) combined by the
  recurrence T₂ = 2·L·T₁ − T₀ — re-lays the stack as a 786432 × 160 matrix, and multiplies it by the weights re-laid as
  160 × 64, adding the bias row, in ONE region of 96 grid points of 8192 rows each; its result is the reshape to
  [4, 196608, 64].  The reference builds the same 786432 × 160 matrix by the same host operations, multiplies it by the
  same 160 × 64 matrix on the host, reshapes, and adds the bias broadcast over the two leading axes.

  The three frames: each program runs to the end, faults nowhere and leaves its six arguments as launched — the
  kernel's (word-level and idealized) from the frame of its one region between the host operations, the reference's
  from its run.  The idealization rewrote nothing.  At the ideal instance the region's output array is the projection
  `x · w + b` of the three arrays the region finds (block by block: point `t` writes rows 8192·t … of it), those three
  arrays are the reference's own intermediate stages, and the reference's result read at an index is that
  projection read at the row-major position the reshape takes the index to.
-/
import proofs.«113886_j19172734009347_1_alg».proof.Defs
import proofs.«113886_j19172734009347_1_alg».proof.Proof.Gen.Kernel
import proofs.«113886_j19172734009347_1_alg».proof.Proof.Gen.KernelIdeal
import proofs.«113886_j19172734009347_1_alg».proof.Proof.Gen.ReferenceIdeal
import proofs.«113886_j19172734009347_1_alg».proof.Proof.Gen.Pre_finite_inputs
import proofs.«113886_j19172734009347_1_alg».proof.Proof.KernelFrame
import proofs.«113886_j19172734009347_1_alg».proof.Proof.KernelIdealValue
import proofs.«113886_j19172734009347_1_alg».proof.Proof.Bridge

noncomputable section

namespace Cert.Proof

open Idealize.ShloMosaic Idealize.ShloMosaic.TcCoe Idealize.SL.Sem

theorem frame_k : Cert.frame_Kernel := fun m ρ _ => Cert.Kernel.Frame.frame m ρ

theorem frame_ki : Cert.frame_KernelIdeal := fun m ρ _ => Cert.KernelIdeal.Frame.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both runs end with the reshaped projection of the features, weights and bias the kernel's region finds: the
    kernel's by its region's write-backs, the reference's because those three arrays are its own stages of the
    arguments, which agree. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v77_eq, (hagree c).1, (hagree c).2.1, (hagree c).2.2.1, (hagree c).2.2.2.1,
    (hagree c).2.2.2.2.1, (hagree c).2.2.2.2.2, Cert.Bridge.entry_features, Cert.Bridge.entry_weights, Cert.Bridge.entry_bias]
  exact (Cert.Bridge.result_eq _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
